-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S1000x5x512 : Shape := ⟨3, ![1000, 5, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S1000x5x512 : S_.BroadcastsInDim S1000x5x512 (![] : Fin 0 → Fin S1000x5x512.rank)
  reducesTo_S1000x5x512_S_d0_1_2 : S1000x5x512.ReducesTo [0, 1, 2] S_

variable [Facts]

def fn {F : FTy → Type} [FloatOps F] (main_arg0 : FVec F S4096x512 .f32) (main_arg1 : FVec F S1000x5x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S1000x5x512 .f32 := Host.absf main_arg1
  let main_cst_0 : FVec F S_ .f32 := constant S_ .f32 0x7F800000#32
  let main_v5 : FVec F S1000x5x512 .f32 := broadcastInDim S1000x5x512 ![] bcast_S_S1000x5x512 main_cst_0
  let main_v6 : IVec S1000x5x512 1 := cmpf .olt main_v4 main_v5
  let main_c_1 : IVec S_ 1 := constantI S_ 1 1#1
  let main_v7 : IVec S_ 1 := (fun x v => Host.reduce IntOp.andi x v reducesTo_S1000x5x512_S_d0_1_2 h_S_) main_v6 main_c_1
  let main_v8 : IVec S_ 1 := andi main_v3 main_v7
  main_v8
-- ==== Kernel.lean ====
abbrev S4096x512 : Shape := ⟨2, ![4096, 512]⟩
abbrev S1000x5x512 : Shape := ⟨3, ![1000, 5, 512]⟩
abbrev S5x512x1000 : Shape := ⟨3, ![5, 512, 1000]⟩
abbrev S_ : Shape := ⟨0, ![]⟩
abbrev S1000x5 : Shape := ⟨2, ![1000, 5]⟩
abbrev S5x1000 : Shape := ⟨2, ![5, 1000]⟩
abbrev S5x1x1000 : Shape := ⟨3, ![5, 1, 1000]⟩
abbrev S4096x1000 : Shape := ⟨2, ![4096, 1000]⟩
abbrev S512x512 : Shape := ⟨2, ![512, 512]⟩
abbrev S512x1000 : Shape := ⟨2, ![512, 1000]⟩
abbrev S512 : Shape := ⟨1, ![512]⟩
abbrev S512x1 : Shape := ⟨2, ![512, 1]⟩
abbrev S1x512x1000 : Shape := ⟨3, ![1, 512, 1000]⟩
abbrev S1x1x1000 : Shape := ⟨3, ![1, 1, 1000]⟩
abbrev S1x1000 : Shape := ⟨2, ![1, 1000]⟩

abbrev nBuf : Space → Nat
  | .hbm => 11
  | .vmem => 8
  | .smem => 0
  | _ => 0

abbrev bufTy : (tb : Table) → Fin (tcTables nBuf tb) → BufTy
  | .hbm, ⟨0, _⟩ => ⟨S4096x512, .f32⟩
  | .hbm, ⟨1, _⟩ => ⟨S1000x5x512, .f32⟩
  | .hbm, ⟨2, _⟩ => ⟨S5x512x1000, .f32⟩
  | .hbm, ⟨3, _⟩ => ⟨S5x512x1000, .bf16⟩
  | .hbm, ⟨4, _⟩ => ⟨S1000x5x512, .f32⟩
  | .hbm, ⟨5, _⟩ => ⟨S_, .f32⟩
  | .hbm, ⟨6, _⟩ => ⟨S1000x5, .f32⟩
  | .hbm, ⟨7, _⟩ => ⟨S5x1000, .f32⟩
  | .hbm, ⟨8, _⟩ => ⟨S5x1x1000, .f32⟩
  | .hbm, ⟨9, _⟩ => ⟨S4096x1000, .f32⟩
  | .hbm, ⟨10, _⟩ => ⟨S4096x1000, .f32⟩
  | .local _ .vmem, ⟨0, _⟩ => ⟨S512x512, .f32⟩
  | .local _ .vmem, ⟨1, _⟩ => ⟨S512x512, .f32⟩
  | .local _ .vmem, ⟨2, _⟩ => ⟨S5x512x1000, .bf16⟩
  | .local _ .vmem, ⟨3, _⟩ => ⟨S5x1x1000, .f32⟩
  | .local _ .vmem, ⟨4, _⟩ => ⟨S512x1000, .f32⟩
  | .local _ .vmem, ⟨5, _⟩ => ⟨S512x1000, .f32⟩
  | .local _ .vmem, ⟨6, _⟩ => ⟨S512x1000, .f32⟩
  | .local _ .vmem, ⟨7, _⟩ => ⟨S512x1000, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x512x1000 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5x1x1000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S1000x5x512_S5x512x1000_1_2_0 : S1000x5x512.Transposes [1, 2, 0] S5x512x1000
  bitsLt_bf16_f32 : FTy.bits .bf16 < FTy.bits .f32
  reducesTo_S1000x5x512_S1000x5_d2 : S1000x5x512.ReducesTo [2] S1000x5
  h_S_ : 0 < S_.numel
  transposes_S1000x5_S5x1000_1_0 : S1000x5.Transposes [1, 0] S5x1000
  bcast_S5x1000_S5x1x1000_0_2 : S5x1000.BroadcastsInDim S5x1x1000 (![0, 2] : Fin 2 → Fin S5x1x1000.rank)
  inb_S512x512_S512x512_0_0 : ∀ a, (![0, 0] : Fin 2 → Nat) a + S512x512.size a ≤ S512x512.size a
  h_S512x512 : 0 < S512x512.numel
  reduces_S512x512_S512 : S512x512.Reduces [1] S512
  shapeCasts_S512_S512x1 : S512.ShapeCasts S512x1
  inb_S5x512x1000_S1x512x1000_0_0_0 : ∀ a, (![0, 0, 0] : Fin 3 → Nat) a + S1x512x1000.size a ≤ S5x512x1000.size a
  h_S1x512x1000 : 0 < S1x512x1000.numel
  shapeCasts_S1x512x1000_S512x1000 : S1x512x1000.ShapeCasts S512x1000
  inb_S5x1x1000_S1x1x1000_0_0_0 : ∀ a, (![0, 0, 0] : Fin 3 → Nat) a + S1x1x1000.size a ≤ S5x1x1000.size a
  h_S1x1x1000 : 0 < S1x1x1000.numel
  shapeCasts_S1x1x1000_S1x1000 : S1x1x1000.ShapeCasts S1x1000
  broadcasts_S1x1000_S512x1000 : S1x1000.Broadcasts S512x1000
  broadcasts_S512x1_S512x1000 : S512x1.Broadcasts S512x1000
  inb_S5x512x1000_S1x512x1000_1_0_0 : ∀ a, (![1, 0, 0] : Fin 3 → Nat) a + S1x512x1000.size a ≤ S5x512x1000.size a
  inb_S5x1x1000_S1x1x1000_1_0_0 : ∀ a, (![1, 0, 0] : Fin 3 → Nat) a + S1x1x1000.size a ≤ S5x1x1000.size a
  inb_S5x512x1000_S1x512x1000_2_0_0 : ∀ a, (![2, 0, 0] : Fin 3 → Nat) a + S1x512x1000.size a ≤ S5x512x1000.size a
  inb_S5x1x1000_S1x1x1000_2_0_0 : ∀ a, (![2, 0, 0] : Fin 3 → Nat) a + S1x1x1000.size a ≤ S5x1x1000.size a
  inb_S5x512x1000_S1x512x1000_3_0_0 : ∀ a, (![3, 0, 0] : Fin 3 → Nat) a + S1x512x1000.size a ≤ S5x512x1000.size a
  inb_S5x1x1000_S1x1x1000_3_0_0 : ∀ a, (![3, 0, 0] : Fin 3 → Nat) a + S1x1x1000.size a ≤ S5x1x1000.size a
  inb_S5x512x1000_S1x512x1000_4_0_0 : ∀ a, (![4, 0, 0] : Fin 3 → Nat) a + S1x512x1000.size a ≤ S5x512x1000.size a
  inb_S5x1x1000_S1x1x1000_4_0_0 : ∀ a, (![4, 0, 0] : Fin 3 → Nat) a + S1x1x1000.size a ≤ S5x1x1000.size a
  inb_S512x1000_S512x1000_0_0 : ∀ a, (![0, 0] : Fin 2 → Nat) a + S512x1000.size a ≤ S512x1000.size a
  h_S512x1000 : 0 < S512x1000.numel
  dot_S512x512_S512x1000_S512x1000_1_0_0_1_n_n_wf : DotDims.WF S512x512 S512x1000 S512x1000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x512.size a
  hwx0_0 : ∀ i : grid0.Coords, EltTy.bits .f32 = 32 ∨ (Rect.block (s := S4096x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x512x1000.size a ≤ S5x512x1000.size a
  hwx0_1 : ∀ i : grid0.Coords, EltTy.bits .bf16 = 32 ∨ (Rect.block (s := S5x512x1000) S5x512x1000.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S5x1x1000.size a ≤ S5x1x1000.size a
  hwx0_2 : ∀ i : grid0.Coords, EltTy.bits .f32 = 32 ∨ (Rect.block (s := S5x1x1000) S5x1x1000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1000.size a ≤ S4096x1000.size a
  hwx0_3 : ∀ i : grid0.Coords, EltTy.bits .f32 = 32 ∨ (Rect.block (s := S4096x1000) S512x1000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1000.size a ≤ S4096x1000.size a
  hwx0_4 : ∀ i : grid0.Coords, EltTy.bits .f32 = 32 ∨ (Rect.block (s := S4096x1000) S512x1000.size (cc0_transform_4 i) (hinb0_4 i)).WholeWords (EltTy.packing .f32)

variable [Facts₀]

def dot_S512x512_S512x1000_S512x1000_1_0_0_1_n_n : DotDims S512x512 S512x1000 S512x1000 where
  lhsContracting := [1]
  rhsContracting := [0]
  lhsNonContracting := [0]
  rhsNonContracting := [1]
  lhsBatch := []
  rhsBatch := []
  wf := dot_S512x512_S512x1000_S512x1000_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S5x512x1000.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S5x1x1000.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6_0) S512x1000.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6_1) S512x1000.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x512 : Shape := ⟨2, ![4096, 512]⟩
abbrev S1000x5x512 : Shape := ⟨3, ![1000, 5, 512]⟩
abbrev S_ : Shape := ⟨0, ![]⟩
abbrev S4096 : Shape := ⟨1, ![4096]⟩
abbrev S1000x5 : Shape := ⟨2, ![1000, 5]⟩
abbrev S4096x1000x5 : Shape := ⟨3, ![4096, 1000, 5]⟩
abbrev S4096x1x1 : Shape := ⟨3, ![4096, 1, 1]⟩
abbrev S1x1000x5 : Shape := ⟨3, ![1, 1000, 5]⟩
abbrev S4096x1000 : Shape := ⟨2, ![4096, 1000]⟩

abbrev nBuf : Space → Nat
  | .hbm => 21
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S1000x5x512, .f32⟩
  | .hbm, ⟨2, _⟩ => ⟨S4096x512, .f32⟩
  | .hbm, ⟨3, _⟩ => ⟨S_, .f32⟩
  | .hbm, ⟨4, _⟩ => ⟨S4096, .f32⟩
  | .hbm, ⟨5, _⟩ => ⟨S1000x5x512, .f32⟩
  | .hbm, ⟨6, _⟩ => ⟨S_, .f32⟩
  | .hbm, ⟨7, _⟩ => ⟨S1000x5, .f32⟩
  | .hbm, ⟨8, _⟩ => ⟨S4096x1000x5, .f32⟩
  | .hbm, ⟨9, _⟩ => ⟨S4096x1x1, .f32⟩
  | .hbm, ⟨10, _⟩ => ⟨S_, .f32⟩
  | .hbm, ⟨11, _⟩ => ⟨S4096x1000x5, .f32⟩
  | .hbm, ⟨12, _⟩ => ⟨S4096x1000x5, .f32⟩
  | .hbm, ⟨13, _⟩ => ⟨S4096x1000x5, .f32⟩
  | .hbm, ⟨14, _⟩ => ⟨S4096x1000x5, .f32⟩
  | .hbm, ⟨15, _⟩ => ⟨S1x1000x5, .f32⟩
  | .hbm, ⟨16, _⟩ => ⟨S4096x1000x5, .f32⟩
  | .hbm, ⟨17, _⟩ => ⟨S4096x1000x5, .f32⟩
  | .hbm, ⟨18, _⟩ => ⟨S_, .f32⟩
  | .hbm, ⟨19, _⟩ => ⟨S4096x1000, .f32⟩
  | .hbm, ⟨20, _⟩ => ⟨S4096x1000, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]

class Facts₀ : Prop where
  reducesTo_S4096x512_S4096_d1 : S4096x512.ReducesTo [1] S4096
  h_S_ : 0 < S_.numel
  reducesTo_S1000x5x512_S1000x5_d2 : S1000x5x512.ReducesTo [2] S1000x5
  bcast_S4096_S4096x1x1_0 : S4096.BroadcastsInDim S4096x1x1 (![0] : Fin 1 → Fin S4096x1x1.rank)
  bcast_S_S4096x1000x5 : S_.BroadcastsInDim S4096x1000x5 (![] : Fin 0 → Fin S4096x1000x5.rank)
  bcast_S4096x1x1_S4096x1000x5_0_1_2 : S4096x1x1.BroadcastsInDim S4096x1000x5 (![0, 1, 2] : Fin 3 → Fin S4096x1000x5.rank)
  bcast_S1000x5_S1x1000x5_1_2 : S1000x5.BroadcastsInDim S1x1000x5 (![1, 2] : Fin 2 → Fin S1x1000x5.rank)
  bcast_S1x1000x5_S4096x1000x5_0_1_2 : S1x1000x5.BroadcastsInDim S4096x1000x5 (![0, 1, 2] : Fin 3 → Fin S4096x1000x5.rank)
  reducesTo_S4096x1000x5_S4096x1000_d2 : S4096x1000x5.ReducesTo [2] S4096x1000
  dot_S4096x512_S1000x5x512_S4096x1000x5_1_2_0_01_n_n_wf : DotDims.WF S4096x512 S1000x5x512 S4096x1000x5 [1] [2] [0] [0, 1] [] []

variable [Facts₀]

def dot_S4096x512_S1000x5x512_S4096x1000x5_1_2_0_01_n_n : DotDims S4096x512 S1000x5x512 S4096x1000x5 where
  lhsContracting := [1]
  rhsContracting := [2]
  lhsNonContracting := [0]
  rhsNonContracting := [0, 1]
  lhsBatch := []
  rhsBatch := []
  wf := dot_S4096x512_S1000x5x512_S4096x1000x5_1_2_0_01_n_n_wf

class Facts : Prop extends Facts₀ where

variable [Facts]
-- ==== Proof.ResidentArrays.lean ====
/-
  The two arrays the kernel's program prepares before its grid runs, read at an entry.

  Before the grid, the program re-lays the prototypes from (class, prototype, feature) to (prototype, feature, class)
  and narrows them to bf16 — over the extended reals a change of float format is the identity, so entry (p, d, k) of the
  re-laid array is the prototype array's entry (k, p, d). It also sums each prototype's squares over the features from
  zero, turns the (class, prototype) table of sums over to (prototype, class), and inserts a unit axis in the middle:
  entry (p, 0, k) of that array is zero plus the sum over d of the square of prototype entry (k, p, d).
-/
import proofs.«118044_j23897198035269_2_alg».proof.Proof.Gen.KernelIdeal.Frame
import Idealize.ShloMosaic.Lib.Pipeline.Value
import Idealize.ShloMosaic.Lib.ValueIdx
import Idealize.ShloMosaic.Lib.StableHlo.Run
import Idealize.ShloMosaic.PureOps.Ideal.Laws

noncomputable section

open scoped BigOperators

namespace Cert.KernelIdeal.Resident

open Cert.KernelIdeal Cert.KernelIdeal.Gen Idealize.ShloMosaic Idealize.ShloMosaic.TcCoe Idealize.SL.Sem
  Idealize.ShloMosaic.ValueIdx Idealize.ShloMosaic.StableHlo

variable (m : (ℓ : Loc nD τ sig) → Buf (Elt Ideal) ℓ)

/-- The array of rows as launched on core `c`, as a function into the extended reals. -/
def rows (c : Dev nD) : S4096x512.Idx → EReal := m ((c : Thread nD τ).loc main_arg0)

/-- The array of prototypes as launched on core `c`, as a function into the extended reals. -/
def protos (c : Dev nD) : S1000x5x512.Idx → EReal := m ((c : Thread nD τ).loc main_arg1)

/-- The re-laid prototypes as the grid finds them: the prototype array transposed, then narrowed. -/
theorem relaid_eq (c : Dev nD) :
    V m c main_v1
      = truncf (F := Ideal) .bf16 (transpose S5x512x1000 [1, 2, 0] (protos m c)
          transposes_S1000x5x512_S5x512x1000_1_2_0) bitsLt_bf16_f32 := by
  unfold V; after_results; rfl

/-- Entry (p, d, k) of the re-laid prototypes is the prototype array's entry (k, p, d). -/
theorem relaid_apply (c : Dev nD) (p : Fin 5) (d : Fin 512) (k : Fin 1000) :
    V m c main_v1 (ix3 p d k) = protos m c (ix3 k p d) := by
  rw [relaid_eq]
  show transpose S5x512x1000 [1, 2, 0] (protos m c) transposes_S1000x5x512_S5x512x1000_1_2_0 (ix3 p d k) = _
  exact transpose_apply [1, 2, 0] _ transposes_S1000x5x512_S5x512x1000_1_2_0 (ix3 p d k) (ix3 k p d) fun b => by
    match b with
    | ⟨0, _⟩ => rfl
    | ⟨1, _⟩ => rfl
    | ⟨2, _⟩ => rfl

/-- A sum over the features, from the zero word, of a (class, prototype, feature) array, at (k, p). -/
theorem featureSum_apply (Y : S1000x5x512.Idx → EReal) (k : Fin 1000) (p : Fin 5) :
    Host.reduceAdd (F := Ideal) Y (constant S_ .f32 0x00000000#32) reducesTo_S1000x5x512_S1000x5_d2 h_S_ (ix2 k p)
      = Ideal.ofBits .f32 0x00000000#32 + ∑ d : Fin 512, Y (ix3 k p d) := by
  simp only [Host.reduceAdd, Ideal.hostReduceAdd_def]
  rw [Ideal.hostReduceAdd_single reducesTo_S1000x5x512_S1000x5_d2 (by decide)]
  refine congrArg (_ + ·) (Finset.sum_congr rfl fun d _ => ?_)
  exact congrArg Y (funext fun a => Fin.ext (by match a with | ⟨0, _⟩ => rfl | ⟨1, _⟩ => rfl | ⟨2, _⟩ => rfl))

/-- The prototypes' squared norms as the grid finds them: squares, summed over the features, turned over, a unit axis
    inserted. -/
theorem norms_eq (c : Dev nD) :
    V m c main_v5
      = broadcastInDim S5x1x1000 ![0, 2] bcast_S5x1000_S5x1x1000_0_2
          (transpose S5x1000 [1, 0]
            (Host.reduceAdd (F := Ideal) (mulf (protos m c) (protos m c))
              (constant S_ .f32 0x00000000#32) reducesTo_S1000x5x512_S1000x5_d2 h_S_)
            transposes_S1000x5_S5x1000_1_0) := by
  unfold V; after_results; rfl

/-- Entry (p, u, k) of the squared norms is zero plus the sum of the squares of prototype (k, p)'s entries. -/
theorem norms_apply (c : Dev nD) (p : Fin 5) (u : Fin 1) (k : Fin 1000) :
    V m c main_v5 (ix3 p u k)
      = Ideal.ofBits .f32 0x00000000#32 + ∑ d : Fin 512, protos m c (ix3 k p d) * protos m c (ix3 k p d) := by
  rw [norms_eq]
  refine (broadcastInDim_apply _ bcast_S5x1000_S5x1x1000_0_2 _ (ix3 p u k) (ix2 p k) fun a => by
    match a with
    | ⟨0, _⟩ => show p.val = if (5 : Nat) = 1 then 0 else p.val; rw [if_neg (by decide)]
    | ⟨1, _⟩ => show k.val = if (1000 : Nat) = 1 then 0 else k.val; rw [if_neg (by decide)]).trans ?_
  refine (transpose_apply [1, 0] _ transposes_S1000x5_S5x1000_1_0 (ix2 p k) (ix2 k p) fun b => by
    match b with
    | ⟨0, _⟩ => rfl
    | ⟨1, _⟩ => rfl).trans ?_
  exact featureSum_apply _ k p

end Cert.KernelIdeal.Resident

end
-- ==== Proof.LibGram.lean ====
/-
  Readings, at an entry, of the operations a table of distances between the rows of two arrays is built from, for any
  sizes.

  The squared distance between row `a` of one array and row `b` of another is the sum of the two rows' squared norms
  minus twice their inner product. A kernel keeps the first array's squared norms as a column (a length-`a` vector cast
  to `a × 1`), and takes the inner products by a matrix product that contracts one axis of each operand. The lemmas
  below read these two operations at an entry; the last one is the law by which halving a negated number is multiplying
  the number by minus one half, on every extended real.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Lib.Gram

open Idealize.ShloMosaic Idealize.ShloMosaic.ValueIdx

variable {α : Type}

/-- A length-`a` vector cast to an `a × 1` column reads, at `(i, u)`, the vector at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A matrix product accumulated into zero whose dimension numbers contract ONE axis, of extent `k`, reads at an
    output entry `j` the sum over that axis's coordinate `c` of the products of the two operands at the entries
    `li c` and `ri c` the dimension numbers pair with `j` and `c`. -/
theorem matmul_zero_single_apply {sl sr so : Shape} {φ₁ φ₂ : FTy} (D : DotDims sl sr so) (k : ℕ)
    (hrank : D.contr.rank = 1) (hsize : D.contr.size ⟨0, by omega⟩ = k) (prec : Option ContractPrecision)
    (A : FVec Ideal sl φ₁) (B : FVec Ideal sr φ₂) (j : so.Idx) (li : Fin k → sl.Idx) (ri : Fin k → sr.Idx)
    (hl : ∀ c, D.lhsIdx j ((contrEquiv1 D k hrank hsize).symm c) = li c)
    (hr : ∀ c, D.rhsIdx j ((contrEquiv1 D k hrank hsize).symm c) = ri c) :
    matmul D prec A B (constant so .f32 0x00000000#32) j = ∑ c : Fin k, A (li c) * B (ri c) := by
  show FloatOps.matmul D prec A B _ j = _
  rw [Ideal.matmul_constant_zero_apply, ← Equiv.sum_comp (contrEquiv1 D k hrank hsize).symm]
  exact Finset.sum_congr rfl fun c _ => by rw [hl c, hr c]

/-- Halving the negation of an extended real is multiplying it by minus one half: division by the real `2` is the
    product with `1/2`, and a sign moves freely across a product — also at the two infinities. -/
theorem div_neg_two (d : EReal) : Ideal.div (-d) ((2 : ℝ) : EReal) = d * ((-(1 / 2) : ℝ) : EReal) := by
  rw [Ideal.div_coe (by norm_num : (2 : ℝ) ≠ 0), EReal.coe_neg, mul_neg, neg_mul]

end Cert.Lib.Gram

end
-- ==== Proof.LibRowOps.lean ====
/-
  Two readings, at an entry, of operations on the rows of a matrix, for any sizes.

  A sum along the lanes of an `n × k` array gives one number per row: at row `r` it is the sum of that row's `k`
  entries.  An `a × 1` column spread over `b` lanes repeats each row's one entry along the row: at `(p, c)` it reads
  the column's entry of row `p`, whatever the lane `c` (also when `a = 1`).
-/
import Idealize.ShloMosaic.Lib.Pipeline.Value
import Idealize.ShloMosaic.Lib.ValueIdx
import Idealize.ShloMosaic.PureOps.Ideal.Laws

noncomputable section

open scoped BigOperators

namespace Cert.Lib.RowOps

open Idealize.ShloMosaic Idealize.ShloMosaic.ValueIdx

/-- A sum along the lanes of an `n × k` array from the zero word reads, at row `r`, the sum of that row's entries. -/
theorem laneSum_apply {n k : ℕ} (src : FVec Ideal ⟨2, ![n, k]⟩ .f32) (h : (⟨2, ![n, k]⟩ : Shape).Reduces [1] ⟨1, ![n]⟩)
    (hφ : FKind.Formats .f32) (hacc : (0x00000000#32 : BitVec 32) = 0x00000000#32) (r : Fin n) :
    multiReduction .add [1] ⟨1, ![n]⟩ src 0x00000000#32 h hφ hacc (ix1 r) = ∑ c : Fin k, src (ix2 r c) := by
  refine (Ideal.multiReduction_add_single src 0x00000000#32 h hφ hacc (ix1 r)).trans ?_
  exact Finset.sum_congr rfl fun c _ => congrArg src (funext fun ax => Fin.ext (by
    match ax with
    | ⟨0, _⟩ => rfl
    | ⟨1, _⟩ => rfl))

/-- An `a × 1` column spread over `b` lanes reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.RowOps

end
-- ==== Proof.BodyAtEntry.lean ====
/-
  What the kernel's body computes for one block of 512 rows, read at an entry (r, k) of the 512 x 1000 block it writes.

  The body holds a block `x0` of 512 rows, and for each of the five prototype slots a 1 x 512 x 1000 slab `w` of the
  re-laid prototypes and a 1 x 1 x 1000 slab `n` of their squared norms. For a slot it forms
      (n[0, 0, k] - 2 * sum_d x0[r, d] * w[0, d, k]) + sum_d x0[r, d]^2 :
  the matrix product of the narrowed rows with the slab viewed as a 512 x 1000 matrix, into zero, is the sum over the
  shared axis; the norms' slab viewed as a 1 x 1000 row and spread down the rows reads its entry k; the rows' squared
  norms, summed along the lanes and kept as a column spread along the lanes, read the row's sum. It then takes the least
  of the five slots' numbers in turn and the larger of that and zero.
-/
import proofs.«118044_j23897198035269_2_alg».proof.Proof.Gen.KernelIdeal.Skeleton
import proofs.«118044_j23897198035269_2_alg».proof.Proof.LibGram
import proofs.«118044_j23897198035269_2_alg».proof.Proof.LibRowOps
import Idealize.ShloMosaic.Lib.ValueIdx
import Idealize.ShloMosaic.Lib.ValueLayout
import Idealize.ShloMosaic.PureOps.Ideal.Laws

noncomputable section

open scoped BigOperators

namespace Cert.KernelIdeal.Body

open Cert.KernelIdeal Cert.KernelIdeal.Gen Idealize.ShloMosaic Idealize.ShloMosaic.ValueIdx Cert.Lib.Gram
  Cert.Lib.RowOps

/-! ## The matrix product's index maps: rows of the left operand, columns of the right, one shared axis -/

theorem lhs_row (i : S512x1000.Idx) (q : dot_S512x512_S512x1000_S512x1000_1_0_0_1_n_n.contr.Idx) : (dot_S512x512_S512x1000_S512x1000_1_0_0_1_n_n.lhsIdx i q 0).val = (i 0).val := by
  unfold DotDims.lhsIdx
  rw [dif_neg (show ¬(0 : Fin S512x512.rank) ∈ dot_S512x512_S512x1000_S512x1000_1_0_0_1_n_n.lhsBatch by decide),
    dif_pos (show (0 : Fin S512x512.rank) ∈ dot_S512x512_S512x1000_S512x1000_1_0_0_1_n_n.lhsNonContracting by decide)]
  rfl

theorem lhs_shared (i : S512x1000.Idx) (q : dot_S512x512_S512x1000_S512x1000_1_0_0_1_n_n.contr.Idx) :
    (dot_S512x512_S512x1000_S512x1000_1_0_0_1_n_n.lhsIdx i q 1).val = (q ⟨0, by decide⟩).val :=
  dot_S512x512_S512x1000_S512x1000_1_0_0_1_n_n.lhsIdx_val_of_single rfl i q

theorem rhs_shared (i : S512x1000.Idx) (q : dot_S512x512_S512x1000_S512x1000_1_0_0_1_n_n.contr.Idx) :
    (dot_S512x512_S512x1000_S512x1000_1_0_0_1_n_n.rhsIdx i q 0).val = (q ⟨0, by decide⟩).val :=
  dot_S512x512_S512x1000_S512x1000_1_0_0_1_n_n.rhsIdx_val_of_single rfl i q

theorem rhs_col (i : S512x1000.Idx) (q : dot_S512x512_S512x1000_S512x1000_1_0_0_1_n_n.contr.Idx) : (dot_S512x512_S512x1000_S512x1000_1_0_0_1_n_n.rhsIdx i q 1).val = (i 1).val := by
  unfold DotDims.rhsIdx
  rw [dif_neg (show ¬(1 : Fin S512x1000.rank) ∈ dot_S512x512_S512x1000_S512x1000_1_0_0_1_n_n.rhsBatch by decide),
    dif_pos (show (1 : Fin S512x1000.rank) ∈ dot_S512x512_S512x1000_S512x1000_1_0_0_1_n_n.rhsNonContracting by decide)]
  rfl

/-- The product of a 512 x 512 matrix with a 512 x 1000 matrix, into zero, at (r, k): the sum over the shared axis. -/
theorem product_apply (A : FVec Ideal S512x512 .bf16) (B : FVec Ideal S512x1000 .bf16) (r : Fin 512) (k : Fin 1000) :
    matmul dot_S512x512_S512x1000_S512x1000_1_0_0_1_n_n none A B (constant S512x1000 .f32 0x00000000#32) (ix2 r k)
      = ∑ d : Fin 512, A (ix2 r d) * B (ix2 d k) :=
  matmul_zero_single_apply dot_S512x512_S512x1000_S512x1000_1_0_0_1_n_n 512 rfl rfl none A B (ix2 r k) (fun d => ix2 r d) (fun d => ix2 d k)
    (fun d => funext fun a => Fin.ext (by
      have hk := contrEquiv1_symm_val dot_S512x512_S512x1000_S512x1000_1_0_0_1_n_n 512 rfl rfl d
      match a with
      | ⟨0, _⟩ => exact lhs_row _ _
      | ⟨1, _⟩ => exact (lhs_shared _ _).trans hk))
    (fun d => funext fun a => Fin.ext (by
      have hk := contrEquiv1_symm_val dot_S512x512_S512x1000_S512x1000_1_0_0_1_n_n 512 rfl rfl d
      match a with
      | ⟨0, _⟩ => exact (rhs_shared _ _).trans hk
      | ⟨1, _⟩ => exact rhs_col _ _))

/-- The rows' squared norms kept as a column: at (r, u) the sum of the squares of row r's entries. -/
theorem rowNorm_apply (x0 : FVec Ideal S512x512 .f32) (r : Fin 512) (u : Fin 1) :
    k0_pay2 x0 (ix2 r u) = ∑ d : Fin 512, x0 (ix2 r d) * x0 (ix2 r d) := by
  show shapeCast S512x1 (multiReduction .add [1] S512 (mulf x0 x0) 0x00000000#32 reduces_S512x512_S512 (.inl rfl) rfl)
    shapeCasts_S512_S512x1 (ix2 r u) = _
  refine (shapeCast_a_a1_apply _ shapeCasts_S512_S512x1 r u).trans ?_
  exact laneSum_apply (mulf x0 x0) reduces_S512x512_S512 (.inl rfl) rfl r

/-- One prototype slot's number at (r, k), from the block of rows and the slot's two slabs. -/
def slotDist (x0 : FVec Ideal S512x512 .f32) (w : FVec Ideal S1x512x1000 .bf16) (n : FVec Ideal S1x1x1000 .f32)
    (r : Fin 512) (k : Fin 1000) : EReal :=
  (n (ix3 (0 : Fin 1) (0 : Fin 1) k)
      - Ideal.ofBits .f32 0x40000000#32 * ∑ d : Fin 512, x0 (ix2 r d) * w (ix3 (0 : Fin 1) d k))
    + ∑ d : Fin 512, x0 (ix2 r d) * x0 (ix2 r d)

/-- The body's term for one slot, read at (r, k), is that number. -/
theorem slot_apply (x0 : FVec Ideal S512x512 .f32) (w : FVec Ideal S1x512x1000 .bf16) (n : FVec Ideal S1x1x1000 .f32)
    (r : Fin 512) (k : Fin 1000) :
    addf (subf (broadcastTo S512x1000 (shapeCast S1x1000 n shapeCasts_S1x1x1000_S1x1000) broadcasts_S1x1000_S512x1000)
        (mulf (broadcast S512x1000 (FloatOps.ofBits (F := Ideal) .f32 0x40000000#32))
          (matmul dot_S512x512_S512x1000_S512x1000_1_0_0_1_n_n none (k0_pay1 x0) (shapeCast S512x1000 w shapeCasts_S1x512x1000_S512x1000)
            (constant S512x1000 .f32 0x00000000#32))))
      (broadcastTo S512x1000 (k0_pay2 x0) broadcasts_S512x1_S512x1000) (ix2 r k)
      = slotDist x0 w n r k := by
  rw [addf_apply, subf_apply, mulf_apply, broadcast_apply, broadcastTo_1b_ab_apply, shapeCast_1ab_ab_apply,
    broadcastTo_a1_ab_apply, rowNorm_apply, product_apply]
  simp only [shapeCast_1ab_ab_apply]
  rfl

/-- THE BODY'S CLAMPED LEAST at (r, k): the least of the five slots' numbers in turn, then the larger of it and zero. -/
theorem clamped_apply (x0 : FVec Ideal S512x512 .f32)
    (w0 : FVec Ideal S1x512x1000 .bf16) (n0 : FVec Ideal S1x1x1000 .f32)
    (w1 : FVec Ideal S1x512x1000 .bf16) (n1 : FVec Ideal S1x1x1000 .f32)
    (w2 : FVec Ideal S1x512x1000 .bf16) (n2 : FVec Ideal S1x1x1000 .f32)
    (w3 : FVec Ideal S1x512x1000 .bf16) (n3 : FVec Ideal S1x1x1000 .f32)
    (w4 : FVec Ideal S1x512x1000 .bf16) (n4 : FVec Ideal S1x1x1000 .f32) (r : Fin 512) (k : Fin 1000) :
    k0_pay6 (F := Ideal) (k0_pay1 (F := Ideal) x0) (k0_pay2 (F := Ideal) x0) (k0_pay3 (F := Ideal) x0 w0 n0 w1 n1)
        (k0_pay4 (F := Ideal) x0 w2) (k0_pay5 (F := Ideal) n2) w3 n3 w4 n4 (ix2 r k)
      = max (min (min (min (min (slotDist x0 w0 n0 r k) (slotDist x0 w1 n1 r k)) (slotDist x0 w2 n2 r k))
          (slotDist x0 w3 n3 r k)) (slotDist x0 w4 n4 r k)) (Ideal.ofBits .f32 0x00000000#32) := by
  simp only [k0_pay6, k0_pay3, k0_pay4, k0_pay5, maximumf_apply, minimumf_apply, broadcast_apply, slot_apply]
  rfl

end Cert.KernelIdeal.Body

end
-- ==== Proof.LibDistanceExpansion.lean ====
/-
  The expansion of a squared Euclidean distance, over the extended reals, for vectors of real entries.

  For real vectors a and b of one length,  |a - b|^2 = |a|^2 + |b|^2 - 2 <a, b>.  A program may fold the factor -2 into
  one operand of the inner product and add the two squared norms afterwards,

      (sum_k a_k (-2 b_k) + |a|^2) + |b|^2 ,

  or subtract twice the plain inner product from the sum of the norms,

      (|a|^2 + |b|^2) - 2 sum_k a_k b_k .

  Over the reals the two are one number, because a constant factor moves out of a finite sum.  Over the extended reals
  that move is not free (a sum may meet both infinities), so the law is stated for entries that are coerced reals: then
  every sum and product below is the coercion of the real one.  The squared norms are written with the leading zero a
  running sum starts from, as an accumulating program spells them.
-/
import Idealize.ShloMosaic.PureOps.Ideal

noncomputable section

open scoped BigOperators

namespace Cert.Lib.DistanceExpansion

open Idealize.ShloMosaic

/-- The coercion of the reals into the extended reals commutes with finite sums. -/
theorem coe_sum {ι : Type} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- A finite sum of products of coerced reals is the coercion of the real sum of products. -/
theorem sum_mul_coe {n : ℕ} (a b : Fin n → ℝ) :
    ∑ k, (a k : EReal) * (b k : EReal) = ((∑ k, a k * b k : ℝ) : EReal) := by
  rw [coe_sum]
  exact Finset.sum_congr rfl fun k _ => (EReal.coe_mul _ _).symm

/-- The two arrangements of the expanded squared distance between real vectors `a` and `b` agree over the extended
    reals: the inner product taken against `-2 b` with the norms added after it, and twice the plain inner product
    subtracted from the sum of the norms. -/
theorem folded_eq_subtracted {n : ℕ} (a b : Fin n → ℝ) :
    ((∑ k, (a k : EReal) * (((-2 : ℝ) : EReal) * (b k : EReal))) + ((0 : EReal) + ∑ k, (a k : EReal) * (a k : EReal)))
        + ((0 : EReal) + ∑ k, (b k : EReal) * (b k : EReal))
      = (((0 : EReal) + ∑ k, (a k : EReal) * (a k : EReal)) + ((0 : EReal) + ∑ k, (b k : EReal) * (b k : EReal)))
        - ((2 : ℝ) : EReal) * ∑ k, (a k : EReal) * (b k : EReal) := by
  have hfold : ∑ k, (a k : EReal) * (((-2 : ℝ) : EReal) * (b k : EReal)) = ((-2 * ∑ k, a k * b k : ℝ) : EReal) := by
    rw [Finset.mul_sum, coe_sum]
    refine Finset.sum_congr rfl fun k _ => ?_
    rw [← EReal.coe_mul, ← EReal.coe_mul]
    exact congrArg _ (by ring)
  rw [hfold, sum_mul_coe a a, sum_mul_coe b b, sum_mul_coe a b, zero_add, zero_add, ← EReal.coe_mul,
    ← EReal.coe_add, ← EReal.coe_add, ← EReal.coe_add, ← EReal.coe_sub]
  exact congrArg _ (by ring)

/-- The float word `0xC0000000` read exactly is `-2`. -/
theorem word_neg_two : Ideal.ofBits .f32 0xC0000000#32 = ((-2 : ℝ) : EReal) := by
  simp [Ideal.ofBits, Ideal.ieee, -EReal.coe_mul]
  norm_num

/-- The float word `0x40000000` read exactly is `2`. -/
theorem word_two : Ideal.ofBits .f32 0x40000000#32 = ((2 : ℝ) : EReal) := by
  simp [Ideal.ofBits, Ideal.ieee, -EReal.coe_mul]
  norm_num

end Cert.Lib.DistanceExpansion

end
-- ==== Proof.LibFoldMin.lean ====
/-
  The least of five elements of a linear order, taken two ways, and the extended reals' reading of the f32 word for
  plus infinity.

  A fold of `min` over the five-element index set, started from an element that nothing exceeds, visits the elements in
  no particular order. A program may instead take them in turn: min (min (min (min f0 f1) f2) f3) f4. Each is the greatest
  lower bound of the five elements, so the two are equal; the starting element plays no part because it is above
  everything. Over the extended reals the f32 word 0x7F800000 is such an element: it reads as the top.
-/
import Idealize.ShloMosaic.PureOps.Ideal

noncomputable section

namespace Cert.Lib.FoldMin

open Idealize.ShloMosaic

/-- Over any linear order, the fold of `min` over `Fin 5` from an element `T` above everything is the left-nested
    minimum of the five values in index order. -/
theorem fold_min_fin5 {α : Type} [LinearOrder α] (T : α) (hT : ∀ a, a ≤ T) (f : Fin 5 → α) :
    (Finset.univ : Finset (Fin 5)).fold min T f = min (min (min (min (f 0) (f 1)) (f 2)) (f 3)) (f 4) := by
  apply le_antisymm
  · refine le_min (le_min (le_min (le_min ?_ ?_) ?_) ?_) ?_ <;>
      exact (Finset.fold_min_le _).2 (Or.inr ⟨_, Finset.mem_univ _, le_rfl⟩)
  · refine (Finset.le_fold_min _).2 ⟨hT _, fun p _ => ?_⟩
    match p with
    | ⟨0, _⟩ =>
      exact (min_le_left _ _).trans ((min_le_left _ _).trans ((min_le_left _ _).trans (min_le_left _ _)))
    | ⟨1, _⟩ =>
      exact (min_le_left _ _).trans ((min_le_left _ _).trans ((min_le_left _ _).trans (min_le_right _ _)))
    | ⟨2, _⟩ => exact (min_le_left _ _).trans ((min_le_left _ _).trans (min_le_right _ _))
    | ⟨3, _⟩ => exact (min_le_left _ _).trans (min_le_right _ _)
    | ⟨4, _⟩ => exact min_le_right _ _

/-- The f32 word `0x7F800000` read exactly is the top of the extended reals. -/
theorem word_top : Ideal.ofBits .f32 0x7F800000#32 = (⊤ : EReal) := by
  simp [Ideal.ofBits, Ideal.ieee]

end Cert.Lib.FoldMin

end
-- ==== Proof.SquaredDistance.lean ====
/-
  The least squared distance from a row of `x` to the five prototypes of a class, in the two arrangements the two
  programs compute, and why they agree on real entries.

  For a row a = x[b, :] and a prototype q = prototypes[c, p, :], both of length 512, the squared distance expands as
      |a - q|^2 = |a|^2 - 2 <a, q> + |q|^2.
  One program adds the terms as (|a|^2 - 2 <a, q>) + |q|^2 and takes the least over the five prototypes p by a fold
  started from plus infinity. The other adds them as (|q|^2 - 2 <a, q>) + |a|^2, takes the least of the five in turn, and
  then takes the larger of that and zero. Over REAL entries every sum and product is the coercion of the real one, both
  arrangements are the real number sum_d (a_d - q_d)^2, and that number is not negative: so the larger-of-zero step
  changes nothing, and the two results are equal. Over the extended reals with infinite entries none of this holds
  (a difference of infinities is junk), which is why the statement is for real entries only.
-/
import Idealize.ShloMosaic.PureOps.Ideal
import Idealize.ShloMosaic.PureOps.Ideal.Laws
import Idealize.ShloMosaic.Lib.ValueIdx
import proofs.«118044_j23897198035269_2_alg».proof.Proof.LibDistanceExpansion
import proofs.«118044_j23897198035269_2_alg».proof.Proof.LibFoldMin

noncomputable section

open scoped BigOperators

namespace Cert.MinDistance

open Idealize.ShloMosaic Idealize.ShloMosaic.ValueIdx Cert.Lib.DistanceExpansion Cert.Lib.FoldMin

/-! ## Real vectors of any length -/

/-- |a|^2 - 2 <a, q> + |q|^2 is the sum of the squared differences. -/
theorem expansion_real {n : ℕ} (a q : Fin n → ℝ) :
    (∑ d, a d * a d) - 2 * (∑ d, a d * q d) + ∑ d, q d * q d = ∑ d, (a d - q d) ^ 2 := by
  rw [Finset.mul_sum, ← Finset.sum_sub_distrib, ← Finset.sum_add_distrib]
  exact Finset.sum_congr rfl fun d _ => by ring

/-- The arrangement (|a|^2 - 2 <a, q>) + |q|^2, with the norms' running sums started from the zero word and the factor
    two the f32 word for 2, is the coercion of the sum of squared differences. -/
theorem normA_first {n : ℕ} (a q : Fin n → ℝ) :
    ((Ideal.ofBits .f32 0x00000000#32 + ∑ d, (a d : EReal) * (a d : EReal))
        - Ideal.ofBits .f32 0x40000000#32 * ∑ d, (a d : EReal) * (q d : EReal))
      + (Ideal.ofBits .f32 0x00000000#32 + ∑ d, (q d : EReal) * (q d : EReal))
      = ((∑ d, (a d - q d) ^ 2 : ℝ) : EReal) := by
  rw [Ideal.ofBits_zero_f32, word_two, sum_mul_coe, sum_mul_coe, sum_mul_coe, zero_add, zero_add, ← EReal.coe_mul,
    ← EReal.coe_sub, ← EReal.coe_add, expansion_real]

/-- The arrangement (|q|^2 - 2 <a, q>) + |a|^2, the norm of `q` started from the zero word and the norm of `a` a plain
    sum, is the same real number. -/
theorem normQ_first {n : ℕ} (a q : Fin n → ℝ) :
    ((Ideal.ofBits .f32 0x00000000#32 + ∑ d, (q d : EReal) * (q d : EReal))
        - Ideal.ofBits .f32 0x40000000#32 * ∑ d, (a d : EReal) * (q d : EReal))
      + ∑ d, (a d : EReal) * (a d : EReal)
      = ((∑ d, (a d - q d) ^ 2 : ℝ) : EReal) := by
  rw [Ideal.ofBits_zero_f32, word_two, sum_mul_coe, sum_mul_coe, sum_mul_coe, zero_add, ← EReal.coe_mul,
    ← EReal.coe_sub, ← EReal.coe_add, ← expansion_real]
  exact congrArg _ (by ring)

/-- A sum of squares of reals, coerced, is not negative. -/
theorem sumSq_nonneg {n : ℕ} (a q : Fin n → ℝ) : (0 : EReal) ≤ ((∑ d, (a d - q d) ^ 2 : ℝ) : EReal) :=
  EReal.coe_nonneg.2 (Finset.sum_nonneg fun d _ => sq_nonneg _)

/-! ## The two programs' results at an entry (b, c) of the 4096 x 1000 table -/

/-- The array of rows, the array of prototypes, and the table of results, as index types. -/
abbrev RowsIdx := (⟨2, ![4096, 512]⟩ : Shape).Idx
abbrev ProtoIdx := (⟨3, ![1000, 5, 512]⟩ : Shape).Idx
abbrev TableIdx := (⟨2, ![4096, 1000]⟩ : Shape).Idx

/-- The squared distance from row `b` to prototype `p` of class `c`, arranged (|a|^2 - 2 <a, q>) + |q|^2. -/
def distRowFirst (X : RowsIdx → EReal) (Q : ProtoIdx → EReal) (b : Fin 4096) (c : Fin 1000) (p : Fin 5) : EReal :=
  ((Ideal.ofBits .f32 0x00000000#32 + ∑ d : Fin 512, X (ix2 b d) * X (ix2 b d))
      - Ideal.ofBits .f32 0x40000000#32 * ∑ d : Fin 512, X (ix2 b d) * Q (ix3 c p d))
    + (Ideal.ofBits .f32 0x00000000#32 + ∑ d : Fin 512, Q (ix3 c p d) * Q (ix3 c p d))

/-- The least of the five, by a fold from the word for plus infinity: the table both programs are compared at. -/
def leastDist (X : RowsIdx → EReal) (Q : ProtoIdx → EReal) (b : Fin 4096) (c : Fin 1000) : EReal :=
  (Finset.univ : Finset (Fin 5)).fold min (Ideal.ofBits .f32 0x7F800000#32) (distRowFirst X Q b c)

/-- The same squared distance arranged (|q|^2 - 2 <a, q>) + |a|^2. -/
def distProtoFirst (X : RowsIdx → EReal) (Q : ProtoIdx → EReal) (b : Fin 4096) (c : Fin 1000) (p : Fin 5) : EReal :=
  ((Ideal.ofBits .f32 0x00000000#32 + ∑ d : Fin 512, Q (ix3 c p d) * Q (ix3 c p d))
      - Ideal.ofBits .f32 0x40000000#32 * ∑ d : Fin 512, X (ix2 b d) * Q (ix3 c p d))
    + ∑ d : Fin 512, X (ix2 b d) * X (ix2 b d)

/-- The least of the five taken in turn, then the larger of that and the zero word. -/
def clampedLeast (X : RowsIdx → EReal) (Q : ProtoIdx → EReal) (b : Fin 4096) (c : Fin 1000) : EReal :=
  max (min (min (min (min (distProtoFirst X Q b c 0) (distProtoFirst X Q b c 1)) (distProtoFirst X Q b c 2))
    (distProtoFirst X Q b c 3)) (distProtoFirst X Q b c 4)) (Ideal.ofBits .f32 0x00000000#32)

/-- ON REAL ENTRIES the clamped least-in-turn is the folded least: both arrangements are the sum of squared
    differences, which is not negative, so taking the larger of it and zero changes nothing. -/
theorem clampedLeast_eq_leastDist (X : RowsIdx → EReal) (Q : ProtoIdx → EReal) (hX : ∀ i, ∃ r : ℝ, X i = (r : EReal))
    (hQ : ∀ i, ∃ r : ℝ, Q i = (r : EReal)) (b : Fin 4096) (c : Fin 1000) :
    clampedLeast X Q b c = leastDist X Q b c := by
  choose x hx using hX
  choose q hq using hQ
  have hK : ∀ p : Fin 5, distProtoFirst X Q b c p
      = ((∑ d : Fin 512, (x (ix2 b d) - q (ix3 c p d)) ^ 2 : ℝ) : EReal) := fun p => by
    unfold distProtoFirst
    simp only [hx, hq]
    exact normQ_first (fun d => x (ix2 b d)) (fun d => q (ix3 c p d))
  have hR : distRowFirst X Q b c
      = fun p : Fin 5 => ((∑ d : Fin 512, (x (ix2 b d) - q (ix3 c p d)) ^ 2 : ℝ) : EReal) := funext fun p => by
    unfold distRowFirst
    simp only [hx, hq]
    exact normA_first (fun d => x (ix2 b d)) (fun d => q (ix3 c p d))
  unfold clampedLeast leastDist
  rw [hR, fold_min_fin5 _ (fun a => by rw [word_top]; exact le_top), hK 0, hK 1, hK 2, hK 3, hK 4,
    Ideal.ofBits_zero_f32]
  exact max_eq_left (le_min (le_min (le_min (le_min (sumSq_nonneg _ _) (sumSq_nonneg _ _)) (sumSq_nonneg _ _))
    (sumSq_nonneg _ _)) (sumSq_nonneg _ _))

/-! ## The same, as whole tables -/

/-- The table of folded leasts, and its negation: what the two programs' results are compared at. -/
def leastTable (X : RowsIdx → EReal) (Q : ProtoIdx → EReal) : TableIdx → EReal := fun j => leastDist X Q (j 0) (j 1)
def negLeastTable (X : RowsIdx → EReal) (Q : ProtoIdx → EReal) : TableIdx → EReal :=
  fun j => -leastDist X Q (j 0) (j 1)

/-- The table of clamped leasts, and the zero word minus it. -/
def clampedTable (X : RowsIdx → EReal) (Q : ProtoIdx → EReal) : TableIdx → EReal :=
  fun j => clampedLeast X Q (j 0) (j 1)
def negClampedTable (X : RowsIdx → EReal) (Q : ProtoIdx → EReal) : TableIdx → EReal :=
  fun j => Ideal.ofBits .f32 0x00000000#32 - clampedLeast X Q (j 0) (j 1)

/-- On real entries the clamped table is the table of folded leasts. -/
theorem clampedTable_eq (X : RowsIdx → EReal) (Q : ProtoIdx → EReal) (hX : ∀ i, ∃ r : ℝ, X i = (r : EReal))
    (hQ : ∀ i, ∃ r : ℝ, Q i = (r : EReal)) : clampedTable X Q = leastTable X Q :=
  funext fun j => clampedLeast_eq_leastDist X Q hX hQ (j 0) (j 1)

/-- The zero word minus an extended real is its negation. -/
theorem zero_word_sub (y : EReal) : Ideal.ofBits .f32 0x00000000#32 - y = -y := by
  rw [Ideal.ofBits_zero_f32, zero_sub]

/-- On real entries zero minus the clamped table is the negated table. -/
theorem negClampedTable_eq (X : RowsIdx → EReal) (Q : ProtoIdx → EReal) (hX : ∀ i, ∃ r : ℝ, X i = (r : EReal))
    (hQ : ∀ i, ∃ r : ℝ, Q i = (r : EReal)) : negClampedTable X Q = negLeastTable X Q :=
  funext fun j => (congrArg (fun z : EReal => Ideal.ofBits .f32 0x00000000#32 - z)
    (clampedLeast_eq_leastDist X Q hX hQ (j 0) (j 1))).trans (zero_word_sub _)

end Cert.MinDistance

end
-- ==== Proof.BlockIsTable.lean ====
/-
  From one block's numbers to the table's: when the block of rows is rows B .. B + 511 of the array `X`, and each
  prototype slot's two slabs are that slot's slice of the re-laid prototypes and of their squared norms, the body's number
  for slot p at (r, k) is the squared distance from row B + r to prototype p of class k in the arrangement
  (|q|^2 - 2 <a, q>) + |a|^2, and the body's clamped least of five is `clampedLeast` at (B + r, k).

  Also: a load of a 1 x 512 x 1000 (or 1 x 1 x 1000) slab at offset (p, 0, 0) of a 5 x 512 x 1000 (or 5 x 1 x 1000) block
  reads, at (0, d, k), the block's entry (p, d, k).
-/
import proofs.«118044_j23897198035269_2_alg».proof.Proof.BodyAtEntry
import proofs.«118044_j23897198035269_2_alg».proof.Proof.SquaredDistance
import Idealize.ShloMosaic.Lib.Pipeline.Value

noncomputable section

open scoped BigOperators

namespace Cert.KernelIdeal.Body

open Cert.KernelIdeal Cert.KernelIdeal.Gen Idealize.ShloMosaic Idealize.ShloMosaic.ValueIdx Cert.MinDistance

/-- Slot `p`'s number is the squared distance from row `b` to prototype `p` of class `k`, prototype's norm first. -/
theorem slotDist_eq (X : RowsIdx → EReal) (Q : ProtoIdx → EReal) (x0 : FVec Ideal S512x512 .f32)
    (w : FVec Ideal S1x512x1000 .bf16) (n : FVec Ideal S1x1x1000 .f32) (b : Fin 4096) (p : Fin 5) (r : Fin 512)
    (k : Fin 1000) (hx : ∀ d : Fin 512, x0 (ix2 r d) = X (ix2 b d))
    (hw : ∀ d : Fin 512, w (ix3 (0 : Fin 1) d k) = Q (ix3 k p d))
    (hn : n (ix3 (0 : Fin 1) (0 : Fin 1) k)
      = Ideal.ofBits .f32 0x00000000#32 + ∑ d : Fin 512, Q (ix3 k p d) * Q (ix3 k p d)) :
    slotDist x0 w n r k = distProtoFirst X Q b k p := by
  unfold slotDist distProtoFirst
  rw [hn]
  simp only [hx, hw]

/-- The clamped least of the five slots' numbers is `clampedLeast` at (b, k). -/
theorem clamped_eq (X : RowsIdx → EReal) (Q : ProtoIdx → EReal) (x0 : FVec Ideal S512x512 .f32)
    (w0 : FVec Ideal S1x512x1000 .bf16) (n0 : FVec Ideal S1x1x1000 .f32)
    (w1 : FVec Ideal S1x512x1000 .bf16) (n1 : FVec Ideal S1x1x1000 .f32)
    (w2 : FVec Ideal S1x512x1000 .bf16) (n2 : FVec Ideal S1x1x1000 .f32)
    (w3 : FVec Ideal S1x512x1000 .bf16) (n3 : FVec Ideal S1x1x1000 .f32)
    (w4 : FVec Ideal S1x512x1000 .bf16) (n4 : FVec Ideal S1x1x1000 .f32) (b : Fin 4096) (r : Fin 512) (k : Fin 1000)
    (e0 : slotDist x0 w0 n0 r k = distProtoFirst X Q b k 0) (e1 : slotDist x0 w1 n1 r k = distProtoFirst X Q b k 1)
    (e2 : slotDist x0 w2 n2 r k = distProtoFirst X Q b k 2) (e3 : slotDist x0 w3 n3 r k = distProtoFirst X Q b k 3)
    (e4 : slotDist x0 w4 n4 r k = distProtoFirst X Q b k 4) :
    max (min (min (min (min (slotDist x0 w0 n0 r k) (slotDist x0 w1 n1 r k)) (slotDist x0 w2 n2 r k))
        (slotDist x0 w3 n3 r k)) (slotDist x0 w4 n4 r k)) (Ideal.ofBits .f32 0x00000000#32)
      = clampedLeast X Q b k := by
  unfold clampedLeast
  rw [e0, e1, e2, e3, e4]

/-- A 1 x 512 x 1000 slab loaded at offset (p, 0, 0) of the resident block reads, at (0, d, k), the block at (p, d, k). -/
theorem protoSlab_apply (Y : Vec Ideal S5x512x1000 .bf16) (p : ℕ) (hp : p < 5)
    (inb : ∀ a, (![p, 0, 0] : Fin 3 → Nat) a + S1x512x1000.size a ≤ S5x512x1000.size a) (d : Fin 512) (k : Fin 1000) :
    View.ld (Val := Elt Ideal) Y (Rect.unit (s := S5x512x1000) ![p, 0, 0] S1x512x1000.size inb) (ix3 (0 : Fin 1) d k)
      = Y (ix3 (⟨p, hp⟩ : Fin 5) d k) := by
  show Y ((Rect.unit (s := S5x512x1000) ![p, 0, 0] S1x512x1000.size inb).idx (ix3 (0 : Fin 1) d k)) = _
  exact congrArg Y (funext fun a => Fin.ext (by
    match a with
    | ⟨0, _⟩ => show p + 1 * 0 = p; omega
    | ⟨1, _⟩ => show 0 + 1 * d.val = d.val; omega
    | ⟨2, _⟩ => show 0 + 1 * k.val = k.val; omega))

/-- A 1 x 1 x 1000 slab loaded at offset (p, 0, 0) of the resident norms reads, at (0, 0, k), the block at (p, 0, k). -/
theorem normSlab_apply (Y : Vec Ideal S5x1x1000 .f32) (p : ℕ) (hp : p < 5)
    (inb : ∀ a, (![p, 0, 0] : Fin 3 → Nat) a + S1x1x1000.size a ≤ S5x1x1000.size a) (k : Fin 1000) :
    View.ld (Val := Elt Ideal) Y (Rect.unit (s := S5x1x1000) ![p, 0, 0] S1x1x1000.size inb)
        (ix3 (0 : Fin 1) (0 : Fin 1) k)
      = Y (ix3 (⟨p, hp⟩ : Fin 5) (0 : Fin 1) k) := by
  show Y ((Rect.unit (s := S5x1x1000) ![p, 0, 0] S1x1x1000.size inb).idx (ix3 (0 : Fin 1) (0 : Fin 1) k)) = _
  exact congrArg Y (funext fun a => Fin.ext (by
    match a with
    | ⟨0, _⟩ => show p + 1 * 0 = p; omega
    | ⟨1, _⟩ => show 0 + 1 * 0 = 0; omega
    | ⟨2, _⟩ => show 0 + 1 * k.val = k.val; omega))

end Cert.KernelIdeal.Body

end
-- ==== Proof.WholeTable.lean ====
/-
  The kernel's two result arrays after the run, as whole 4096 x 1000 tables.

  The grid has eight points. Point t holds rows 512 t .. 512 t + 511 of `x` and the whole of the two resident arrays
  (the re-laid prototypes and their squared norms), and writes back rows 512 t .. 512 t + 511 of each result. What it
  writes at (r, k) is, for the second result, the clamped least of the five prototype slots' numbers — `clampedLeast` at
  row 512 t + r and class k — and for the first result the zero word minus that. The eight blocks of 512 rows tile the
  4096 rows, so each result array ends as one function of the two argument arrays.
-/
import proofs.«118044_j23897198035269_2_alg».proof.Proof.Gen.KernelIdeal.Value
import proofs.«118044_j23897198035269_2_alg».proof.Proof.ResidentArrays
import proofs.«118044_j23897198035269_2_alg».proof.Proof.BlockIsTable
import Idealize.ShloMosaic.Lib.Pipeline.Value

noncomputable section

open scoped BigOperators

namespace Cert.KernelIdeal.Table

open Cert.KernelIdeal Cert.KernelIdeal.Gen Cert.KernelIdeal.Resident Idealize.ShloMosaic Idealize.ShloMosaic.TcCoe
  Idealize.SL.Sem Idealize.ShloMosaic.ValueIdx Cert.MinDistance
open Idealize.ShloMosaic.Pipeline (Dat)

variable (m : (ℓ : Loc nD τ sig) → Buf (Elt Ideal) ℓ) (ρ : Dev nD → PrngReg)

theorem zeros2 : (![0, 0] : Fin 2 → Nat) = fun _ => 0 := funext fun a => by fin_cases a <;> rfl

/-- Where each window's block sits at point t, decided over the eight points: the rows' block and both results' blocks
    move together down the rows and never sideways; the resident blocks never move. -/
theorem block_places : ∀ t : Fin cfg0.N,
    win0_0.index t (0 : Fin 2) = win0_4.index t (0 : Fin 2) ∧ win0_0.index t (1 : Fin 2) = 0
    ∧ win0_1.index t (0 : Fin 3) = 0 ∧ win0_1.index t (1 : Fin 3) = 0 ∧ win0_1.index t (2 : Fin 3) = 0
    ∧ win0_2.index t (0 : Fin 3) = 0 ∧ win0_2.index t (1 : Fin 3) = 0 ∧ win0_2.index t (2 : Fin 3) = 0
    ∧ win0_3.index t (0 : Fin 2) = win0_4.index t (0 : Fin 2) ∧ win0_3.index t (1 : Fin 2) = 0
    ∧ win0_4.index t (1 : Fin 2) = 0 ∧ win0_4.index t (0 : Fin 2) ≤ 7 :=
  (by decide +kernel : ∀ t : Fin grid0.N, _)

/-- Every one of the eight row blocks is some point's, for each result. -/
theorem block_onto4 : ∀ q : Fin 8, ∃ t : Fin cfg0.N, win0_4.index t = ![q.val, 0] :=
  (by decide +kernel : ∀ q : Fin 8, ∃ t : Fin grid0.N, win0_4.index t = ![q.val, 0])
theorem block_onto3 : ∀ q : Fin 8, ∃ t : Fin cfg0.N, win0_3.index t = ![q.val, 0] :=
  (by decide +kernel : ∀ q : Fin 8, ∃ t : Fin grid0.N, win0_3.index t = ![q.val, 0])

/-! ## The input blocks at point t, read at an entry -/

/-- The rows' block at point t holds rows 512 T .. of `x`, T the block's place down the rows. -/
theorem rowsBlock_apply (c : Dev nD) (t : Fin cfg0.N) (r : Fin 512) (d : Fin 512)
    (hb : win0_4.index t (0 : Fin 2) * 512 + r.val < 4096) :
    iblk m c 0 t (ix2 r d) = rows m c (ix2 (⟨win0_4.index t (0 : Fin 2) * 512 + r.val, hb⟩ : Fin 4096) d) := by
  obtain ⟨f00, f01, -⟩ := block_places t
  show V m c main_arg0 (((cfg0.win 0).blk t).view.emb (ix2 r d)) = _
  rw [V_main_arg0]
  exact congrArg (rows m c) (funext fun a => Fin.ext (by
    match a with
    | ⟨0, _⟩ => show win0_0.index t (0 : Fin 2) * 512 + 1 * r.val = win0_4.index t (0 : Fin 2) * 512 + r.val; omega
    | ⟨1, _⟩ => show win0_0.index t (1 : Fin 2) * 512 + 1 * d.val = d.val; omega))

/-- The resident prototypes' block is the whole re-laid array: entry (p, d, k) is prototype entry (k, p, d). -/
theorem protoBlock_apply (c : Dev nD) (t : Fin cfg0.N) (p : Fin 5) (d : Fin 512) (k : Fin 1000) :
    iblk m c 1 t (ix3 p d k) = protos m c (ix3 k p d) := by
  obtain ⟨-, -, f10, f11, f12, -⟩ := block_places t
  show V m c main_v1 (((cfg0.win 1).blk t).view.emb (ix3 p d k)) = _
  rw [← relaid_apply m c p d k]
  exact congrArg (V m c main_v1) (funext fun a => Fin.ext (by
    match a with
    | ⟨0, _⟩ => show win0_1.index t (0 : Fin 3) * 5 + 1 * p.val = p.val; omega
    | ⟨1, _⟩ => show win0_1.index t (1 : Fin 3) * 512 + 1 * d.val = d.val; omega
    | ⟨2, _⟩ => show win0_1.index t (2 : Fin 3) * 1000 + 1 * k.val = k.val; omega))

/-- The resident norms' block is the whole array of squared norms. -/
theorem normBlock_apply (c : Dev nD) (t : Fin cfg0.N) (p : Fin 5) (k : Fin 1000) :
    iblk m c 2 t (ix3 p (0 : Fin 1) k)
      = Ideal.ofBits .f32 0x00000000#32 + ∑ d : Fin 512, protos m c (ix3 k p d) * protos m c (ix3 k p d) := by
  obtain ⟨-, -, -, -, -, f20, f21, f22, -⟩ := block_places t
  show V m c main_v5 (((cfg0.win 2).blk t).view.emb (ix3 p (0 : Fin 1) k)) = _
  rw [← norms_apply m c p (0 : Fin 1) k]
  exact congrArg (V m c main_v5) (funext fun a => Fin.ext (by
    match a with
    | ⟨0, _⟩ => show win0_2.index t (0 : Fin 3) * 5 + 1 * p.val = p.val; omega
    | ⟨1, _⟩ => show win0_2.index t (1 : Fin 3) * 1 + 1 * 0 = 0; omega
    | ⟨2, _⟩ => show win0_2.index t (2 : Fin 3) * 1000 + 1 * k.val = k.val; omega))

/-- Slot p's number at point t and entry (r, k) is the squared distance from row 512 T + r to prototype p of class k. -/
theorem slot_at_point (c : Dev nD) (t : Fin cfg0.N) (p : ℕ) (hp : p < 5)
    (inbw : ∀ a, (![p, 0, 0] : Fin 3 → Nat) a + S1x512x1000.size a ≤ S5x512x1000.size a)
    (inbn : ∀ a, (![p, 0, 0] : Fin 3 → Nat) a + S1x1x1000.size a ≤ S5x1x1000.size a) (r : Fin 512) (k : Fin 1000)
    (hb : win0_4.index t (0 : Fin 2) * 512 + r.val < 4096) :
    Body.slotDist (iblk m c 0 t)
        (View.ld (iblk m c 1 t) (Rect.unit (s := S5x512x1000) ![p, 0, 0] S1x512x1000.size inbw))
        (View.ld (iblk m c 2 t) (Rect.unit (s := S5x1x1000) ![p, 0, 0] S1x1x1000.size inbn)) r k
      = distProtoFirst (rows m c) (protos m c) (⟨win0_4.index t (0 : Fin 2) * 512 + r.val, hb⟩ : Fin 4096) k
          (⟨p, hp⟩ : Fin 5) :=
  Body.slotDist_eq (rows m c) (protos m c) (iblk m c 0 t) _ _ _ (⟨p, hp⟩ : Fin 5) r k
    (fun d => rowsBlock_apply m c t r d hb)
    (fun d => (Body.protoSlab_apply (iblk m c 1 t) p hp inbw d k).trans (protoBlock_apply m c t ⟨p, hp⟩ d k))
    ((Body.normSlab_apply (iblk m c 2 t) p hp inbn k).trans (normBlock_apply m c t ⟨p, hp⟩ k))

/-- The body's clamped least at point t and entry (r, k) is `clampedLeast` at row 512 T + r and class k. -/
theorem clamped_at_point (c : Dev nD) (t : Fin cfg0.N) (r : Fin 512) (k : Fin 1000)
    (hb : win0_4.index t (0 : Fin 2) * 512 + r.val < 4096) :
    k0_pay6 (F := Ideal) (k0_pay1 (F := Ideal) (iblk m c 0 t)) (k0_pay2 (F := Ideal) (iblk m c 0 t))
        (k0_pay3 (F := Ideal) (iblk m c 0 t) (View.ld (iblk m c 1 t) r0_1) (View.ld (iblk m c 2 t) r0_2)
          (View.ld (iblk m c 1 t) r0_3) (View.ld (iblk m c 2 t) r0_4))
        (k0_pay4 (F := Ideal) (iblk m c 0 t) (View.ld (iblk m c 1 t) r0_5))
        (k0_pay5 (F := Ideal) (View.ld (iblk m c 2 t) r0_6)) (View.ld (iblk m c 1 t) r0_7)
        (View.ld (iblk m c 2 t) r0_8) (View.ld (iblk m c 1 t) r0_9) (View.ld (iblk m c 2 t) r0_10) (ix2 r k)
      = clampedLeast (rows m c) (protos m c) (⟨win0_4.index t (0 : Fin 2) * 512 + r.val, hb⟩ : Fin 4096) k :=
  (Body.clamped_apply (iblk m c 0 t) (View.ld (iblk m c 1 t) r0_1) (View.ld (iblk m c 2 t) r0_2)
    (View.ld (iblk m c 1 t) r0_3) (View.ld (iblk m c 2 t) r0_4) (View.ld (iblk m c 1 t) r0_5)
    (View.ld (iblk m c 2 t) r0_6) (View.ld (iblk m c 1 t) r0_7) (View.ld (iblk m c 2 t) r0_8)
    (View.ld (iblk m c 1 t) r0_9) (View.ld (iblk m c 2 t) r0_10) r k).trans
  (Body.clamped_eq (rows m c) (protos m c) (iblk m c 0 t) (View.ld (iblk m c 1 t) r0_1) (View.ld (iblk m c 2 t) r0_2)
    (View.ld (iblk m c 1 t) r0_3) (View.ld (iblk m c 2 t) r0_4) (View.ld (iblk m c 1 t) r0_5)
    (View.ld (iblk m c 2 t) r0_6) (View.ld (iblk m c 1 t) r0_7) (View.ld (iblk m c 2 t) r0_8)
    (View.ld (iblk m c 1 t) r0_9) (View.ld (iblk m c 2 t) r0_10) _ r k
    (slot_at_point m c t 0 (by decide) _ _ r k hb) (slot_at_point m c t 1 (by decide) _ _ r k hb)
    (slot_at_point m c t 2 (by decide) _ _ r k hb) (slot_at_point m c t 3 (by decide) _ _ r k hb)
    (slot_at_point m c t 4 (by decide) _ _ r k hb))

/-! ## What each point writes back is its block of the table -/

/-- Where entry (r, k) of point t's block of a result sits in the 4096 x 1000 array. -/
theorem place4 (t : Fin cfg0.N) (r : Fin 512) (k : Fin 1000) (hb : win0_4.index t (0 : Fin 2) * 512 + r.val < 4096) :
    ((cfg0.win 4).blk t).view.emb (ix2 r k) = ix2 (⟨win0_4.index t (0 : Fin 2) * 512 + r.val, hb⟩ : Fin 4096) k := by
  obtain ⟨-, -, -, -, -, -, -, -, -, -, f41, -⟩ := block_places t
  funext a; apply Fin.ext
  match a with
  | ⟨0, _⟩ => show win0_4.index t (0 : Fin 2) * 512 + 1 * r.val = win0_4.index t (0 : Fin 2) * 512 + r.val; omega
  | ⟨1, _⟩ => show win0_4.index t (1 : Fin 2) * 1000 + 1 * k.val = k.val; omega

theorem place3 (t : Fin cfg0.N) (r : Fin 512) (k : Fin 1000) (hb : win0_4.index t (0 : Fin 2) * 512 + r.val < 4096) :
    ((cfg0.win 3).blk t).view.emb (ix2 r k) = ix2 (⟨win0_4.index t (0 : Fin 2) * 512 + r.val, hb⟩ : Fin 4096) k := by
  obtain ⟨-, -, -, -, -, -, -, -, f30, f31, -⟩ := block_places t
  funext a; apply Fin.ext
  match a with
  | ⟨0, _⟩ => show win0_3.index t (0 : Fin 2) * 512 + 1 * r.val = win0_4.index t (0 : Fin 2) * 512 + r.val; omega
  | ⟨1, _⟩ => show win0_3.index t (1 : Fin 2) * 1000 + 1 * k.val = k.val; omega

/-- WHAT POINT t WRITES BACK to the second result is block t of `clampedTable`. -/
theorem flushed4_eq (c : Dev nD) (t : Fin cfg0.N) :
    (dats m 0 c).flushed 4 t
      = ((cfg0.win 4).blk t).view.read (Elt Ideal) (clampedTable (rows m c) (protos m c)) := by
  show (cfg0.win 4).cut (grid0.coords t) ((dats m 0 c).after 4 t) = _
  rw [after0_4]
  unfold out0_4
  rw [View.canon_unit_zero zeros2]
  simp only [View.ld_unit_zero (S := S512x512) zeros2]
  funext j
  rw [eq_ix2 j]
  have hb : win0_4.index t (0 : Fin 2) * 512 + (j 0).val < 4096 := by
    have := (block_places t).2.2.2.2.2.2.2.2.2.2.2
    have hj : (j 0).val < 512 := (j 0).isLt
    omega
  refine (clamped_at_point m c t (j 0) (j 1) hb).trans ?_
  show _ = clampedTable (rows m c) (protos m c) (((cfg0.win 4).blk t).view.emb (ix2 (j 0) (j 1)))
  rw [place4 t (j 0) (j 1) hb]
  rfl

/-- WHAT POINT t WRITES BACK to the first result is block t of `negClampedTable`. -/
theorem flushed3_eq (c : Dev nD) (t : Fin cfg0.N) :
    (dats m 0 c).flushed 3 t
      = ((cfg0.win 3).blk t).view.read (Elt Ideal) (negClampedTable (rows m c) (protos m c)) := by
  show (cfg0.win 3).cut (grid0.coords t) ((dats m 0 c).after 3 t) = _
  rw [after0_3]
  unfold out0_3
  rw [View.canon_unit_zero zeros2]
  simp only [View.ld_unit_zero (S := S512x512) zeros2]
  funext j
  rw [eq_ix2 j]
  have hb : win0_4.index t (0 : Fin 2) * 512 + (j 0).val < 4096 := by
    have := (block_places t).2.2.2.2.2.2.2.2.2.2.2
    have hj : (j 0).val < 512 := (j 0).isLt
    omega
  show Ideal.ofBits .f32 0x00000000#32 - k0_pay6 (F := Ideal) _ _ _ _ _ _ _ _ _ (ix2 (j 0) (j 1))
    = negClampedTable (rows m c) (protos m c) (((cfg0.win 3).blk t).view.emb (ix2 (j 0) (j 1)))
  refine (congrArg (fun z : EReal => Ideal.ofBits .f32 0x00000000#32 - z)
    (clamped_at_point m c t (j 0) (j 1) hb)).trans ?_
  show _ = negClampedTable (rows m c) (protos m c) (((cfg0.win 3).blk t).view.emb (ix2 (j 0) (j 1)))
  rw [place3 t (j 0) (j 1) hb]
  rfl

/-! ## The eight blocks tile the array -/

theorem mem_blk4 (t : Fin cfg0.N) (i : S4096x1000.Idx) :
    i ∈ ((cfg0.win 4).blk t).view.set ↔ ∀ a : Fin 2, win0_4.index t a * S512x1000.size a ≤ (i a).val
      ∧ (i a).val < win0_4.index t a * S512x1000.size a + S512x1000.size a := by
  show i ∈ ((View.whole main_v6_1).slice (win0_4.rect t)).set ↔ _
  rw [View.set_slice_whole, Rect.mem_set_unit]
  exact Iff.rfl

theorem mem_blk3 (t : Fin cfg0.N) (i : S4096x1000.Idx) :
    i ∈ ((cfg0.win 3).blk t).view.set ↔ ∀ a : Fin 2, win0_3.index t a * S512x1000.size a ≤ (i a).val
      ∧ (i a).val < win0_3.index t a * S512x1000.size a + S512x1000.size a := by
  show i ∈ ((View.whole main_v6_0).slice (win0_3.rect t)).set ↔ _
  rw [View.set_slice_whole, Rect.mem_set_unit]
  exact Iff.rfl

/-- Row b of the array is in the block of the point whose place down the rows is b / 512. -/
theorem cover4 (i : S4096x1000.Idx) :
    ∃ t : Fin cfg0.N, (cfg0.win 4).flush t = true ∧ i ∈ ((cfg0.win 4).blk t).view.set := by
  have hi0 : (i 0).val < 4096 := (i 0).isLt
  have hi1 : (i 1).val < 1000 := (i 1).isLt
  obtain ⟨t, ht⟩ := block_onto4 ⟨(i 0).val / 512, by omega⟩
  have q0 : win0_4.index t (0 : Fin 2) = (i 0).val / 512 := congrFun ht 0
  have q1 : win0_4.index t (1 : Fin 2) = 0 := congrFun ht 1
  refine ⟨t, flush0_4 t, ?_⟩
  rw [mem_blk4]
  intro a
  match a with
  | ⟨0, _⟩ =>
    show win0_4.index t (0 : Fin 2) * 512 ≤ (i 0).val ∧ (i 0).val < win0_4.index t (0 : Fin 2) * 512 + 512
    omega
  | ⟨1, _⟩ =>
    show win0_4.index t (1 : Fin 2) * 1000 ≤ (i 1).val ∧ (i 1).val < win0_4.index t (1 : Fin 2) * 1000 + 1000
    omega

theorem cover3 (i : S4096x1000.Idx) :
    ∃ t : Fin cfg0.N, (cfg0.win 3).flush t = true ∧ i ∈ ((cfg0.win 3).blk t).view.set := by
  have hi0 : (i 0).val < 4096 := (i 0).isLt
  have hi1 : (i 1).val < 1000 := (i 1).isLt
  obtain ⟨t, ht⟩ := block_onto3 ⟨(i 0).val / 512, by omega⟩
  have q0 : win0_3.index t (0 : Fin 2) = (i 0).val / 512 := congrFun ht 0
  have q1 : win0_3.index t (1 : Fin 2) = 0 := congrFun ht 1
  refine ⟨t, flush0_3 t, ?_⟩
  rw [mem_blk3]
  intro a
  match a with
  | ⟨0, _⟩ =>
    show win0_3.index t (0 : Fin 2) * 512 ≤ (i 0).val ∧ (i 0).val < win0_3.index t (0 : Fin 2) * 512 + 512
    omega
  | ⟨1, _⟩ =>
    show win0_3.index t (1 : Fin 2) * 1000 ≤ (i 1).val ∧ (i 1).val < win0_3.index t (1 : Fin 2) * 1000 + 1000
    omega

/-! ## The arrays after the run, and the run -/

theorem final4 (c : Dev nD) : (dats m 0 c).arrAt 4 cfg0.N = clampedTable (rows m c) (protos m c) :=
  (dats m 0 c).arrAt_eq_of_cover 4 (clampedTable (rows m c) (protos m c)) (fun t _ => flushed4_eq m c t) cover4

theorem final3 (c : Dev nD) : (dats m 0 c).arrAt 3 cfg0.N = negClampedTable (rows m c) (protos m c) :=
  (dats m 0 c).arrAt_eq_of_cover 3 (negClampedTable (rows m c) (protos m c)) (fun t _ => flushed3_eq m c t) cover3

/-- The kernel's run: every weakly fair execution ends with the first result at the negated clamped table, the second
    at the clamped table, and the arguments unchanged. -/
theorem run : θ_run defs (onTc (τ := τ) (main (F := Ideal))) ⟨m, fun _ => 0, ρ⟩ fun r => ∀ c : Dev nD,
      r.2.mem ((c : Thread nD τ).loc main_v6_0) = negClampedTable (rows m c) (protos m c)
      ∧ r.2.mem ((c : Thread nD τ).loc main_v6_1) = clampedTable (rows m c) (protos m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final3 m c), (h c).2.1.trans (final4 m c), (h c).2.2⟩)
    (Value.run_blocks m ρ)

end Cert.KernelIdeal.Table

end
-- ==== Proof.ReferenceTable.lean ====
/-
  The reference's two results, read at an entry of the 4096 x 1000 table.

  The reference forms, for every row b, class c and prototype p, the number (|x_b|^2 - 2 <x_b, q_cp>) + |q_cp|^2 with
  both squared norms summed from zero, then takes the least over p by a reduction started from plus infinity, and
  returns that table and its negation. Read one operation at a time at the entry (b, c, p), the distance stage is the
  arrangement `distRowFirst`; the reduction over the last axis, whose body `min` commutes and associates, is the fold
  over the five prototypes, `leastDist`.
-/
import proofs.«118044_j23897198035269_2_alg».proof.Proof.Gen.ReferenceIdeal.Read
import proofs.«118044_j23897198035269_2_alg».proof.Proof.SquaredDistance
import Idealize.ShloMosaic.PureOps.Reduce
import Idealize.ShloMosaic.PureOps.Ideal.Laws

noncomputable section

open scoped BigOperators

namespace Cert.ReferenceIdeal.Table

open Cert.ReferenceIdeal Cert.ReferenceIdeal.Gen Cert.ReferenceIdeal.Read Idealize.ShloMosaic
  Idealize.ShloMosaic.ValueIdx Cert.MinDistance

/-- The distance stage at (b, c, p): the row's norm, minus twice the inner product, plus the prototype's norm. -/
theorem dist_apply (X : RowsIdx → EReal) (Q : ProtoIdx → EReal) (b : Fin 4096) (c : Fin 1000) (p : Fin 5) :
    val_main_v12 (F := Ideal) X Q (ix3 b c p) = distRowFirst X Q b c p := by
  have eX : ∀ k : Fin 512, idx_main_v1 (idx_main_v5 (idx_main_v8 (ix3 b c p))) k = ix2 b k := fun k =>
    funext fun a => Fin.ext (by match a with | ⟨0, _⟩ => rfl | ⟨1, _⟩ => rfl)
  have eQ : ∀ k : Fin 512, idx_main_v3 (idx_main_v10 (idx_main_v11 (ix3 b c p))) k = ix3 c p k := fun k =>
    funext fun a => Fin.ext (by match a with | ⟨0, _⟩ => rfl | ⟨1, _⟩ => rfl | ⟨2, _⟩ => rfl)
  have eL : ∀ k : Fin 512, lidx_main_v4 (ix3 b c p) k = ix2 b k := fun k =>
    funext fun a => Fin.ext (by match a with | ⟨0, _⟩ => rfl | ⟨1, _⟩ => rfl)
  have eR : ∀ k : Fin 512, ridx_main_v4 (ix3 b c p) k = ix3 c p k := fun k =>
    funext fun a => Fin.ext (by match a with | ⟨0, _⟩ => rfl | ⟨1, _⟩ => rfl | ⟨2, _⟩ => rfl)
  rw [val_main_v12_apply, val_main_v9_apply, val_main_v8_apply, val_main_v5_apply, val_main_v1_apply,
    val_main_v7_apply, val_main_v6_apply, val_main_v4_apply, val_main_v11_apply, val_main_v10_apply,
    val_main_v3_apply]
  simp only [val_main_v0_apply, val_main_v2_apply, val_main_cst_apply, val_main_cst_0_apply, val_main_cst_1_apply,
    Ideal.addf_def, Ideal.subf_def, Ideal.mulf_def, Ideal.ofBits_def, eX, eQ, eL, eR]
  rfl

/-- The reference's reduction drops the last of the three axes. -/
theorem drops_last : S4096x1000x5.Reduces [2] S4096x1000 := by decide

/-- The reference's second result at (b, c): the least of the five distances, folded from plus infinity. -/
theorem least_apply (X : RowsIdx → EReal) (Q : ProtoIdx → EReal) (b : Fin 4096) (c : Fin 1000) :
    val_main_v13 (F := Ideal) X Q (ix2 b c) = leastDist X Q b c := by
  unfold val_main_v13
  rw [Host.reduce_eq_fold_single FloatOps.minimumf _ _ reducesTo_S4096x1000x5_S4096x1000_d2 drops_last h_S_ (ix2 b c)]
  have hf : ∀ p : Fin 5, val_main_v12 (F := Ideal) X Q (drops_last.lift (ix2 b c) p) = distRowFirst X Q b c p :=
    fun p => (congrArg (val_main_v12 (F := Ideal) X Q) (funext fun a => Fin.ext (by
      match a with | ⟨0, _⟩ => rfl | ⟨1, _⟩ => rfl | ⟨2, _⟩ => rfl))).trans (dist_apply X Q b c p)
  exact congrArg (fun f : Fin 5 → EReal =>
    (Finset.univ : Finset (Fin 5)).fold min (Ideal.ofBits .f32 0x7F800000#32) f) (funext hf)

/-- The reference's first result at (b, c): the negation of the second. -/
theorem negLeast_apply (X : RowsIdx → EReal) (Q : ProtoIdx → EReal) (b : Fin 4096) (c : Fin 1000) :
    val_main_v14 (F := Ideal) X Q (ix2 b c) = -leastDist X Q b c := by
  rw [val_main_v14_apply, least_apply]
  rfl

/-- The reference's second result is the table of folded leasts. -/
theorem least_eq (X : RowsIdx → EReal) (Q : ProtoIdx → EReal) : val_main_v13 (F := Ideal) X Q = leastTable X Q :=
  funext fun j => by rw [eq_ix2 j]; exact least_apply X Q (j 0) (j 1)

/-- The reference's first result is its negation. -/
theorem negLeast_eq (X : RowsIdx → EReal) (Q : ProtoIdx → EReal) : val_main_v14 (F := Ideal) X Q = negLeastTable X Q :=
  funext fun j => by rw [eq_ix2 j]; exact negLeast_apply X Q (j 0) (j 1)

end Cert.ReferenceIdeal.Table

end
-- ==== Proof.RealEntries.lean ====
/-
  The precondition, read back: every entry of both argument arrays is a real number.

  The precondition is the conjunction of two `all` tests, one per argument array, each saying that the absolute value
  of every entry is below plus infinity. An `all` that came out true was true at every index. Over the extended reals
  the absolute value max(x, -x) of either infinity is plus infinity, which is not below itself; so an entry that passes
  the test is neither infinity: it is (the coercion of) a real.
-/
import proofs.«118044_j23897198035269_2_alg».proof.Pre_finite_inputs
import Idealize.ShloMosaic.Lib.ReduceAll
import Idealize.ShloMosaic.Lib.ValueIdx
import Idealize.ShloMosaic.PureOps.Ideal.Laws

noncomputable section

namespace Cert.Pre_finite_inputs.RealEntries

open Cert.Pre_finite_inputs Idealize.ShloMosaic Idealize.ShloMosaic.ValueIdx

/-- The scalar shape has one index. -/
instance : Subsingleton S_.Idx := ⟨fun a b => funext fun d => d.elim0⟩

/-- An extended real whose absolute value tests below the word for plus infinity is a real. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  induction x using EReal.rec with
  | bot => simp [Ideal.cmp] at h
  | coe r => exact ⟨r, rfl⟩
  | top => simp [Ideal.cmp] at h

/-- If the precondition's function is all ones on two arrays, every entry of each is a real. -/
theorem entries_real [Facts] (a0 : FVec Ideal S4096x512 .f32) (a1 : FVec Ideal S1000x5x512 .f32)
    (h : fn (F := Ideal) a0 a1 = fun _ => 1#1) :
    (∀ i, ∃ r : ℝ, a0 i = (r : EReal)) ∧ (∀ i, ∃ r : ℝ, a1 i = (r : EReal)) := by
  have h0 := congrFun h ix0
  dsimp only [fn] at h0
  obtain ⟨hA, hB⟩ := IntOp.andi_eq_one.1 h0
  exact ⟨fun i => real_of_abs_lt (a0 i) (Host.reduce_andi_all _ _ _ _ ix0 hA i),
    fun i => real_of_abs_lt (a1 i) (Host.reduce_andi_all _ _ _ _ ix0 hB i)⟩

end Cert.Pre_finite_inputs.RealEntries

end
-- ==== Proof.lean ====
/- The least squared distance from each of 4096 rows to the five prototypes of each of 1000 classes, and its negation:
   a kernel against its reference, over the extended reals.

   Both programs expand |a - q|^2 as |a|^2 - 2 <a, q> + |q|^2 for a row a and a prototype q of length 512. The reference
   adds the terms as (|a|^2 - 2 <a, q>) + |q|^2 and takes the least over the five prototypes of a class by a reduction from
   plus infinity. The kernel works on blocks of 512 rows with the prototypes re-laid and their squared norms computed
   beforehand; it adds the terms as (|q|^2 - 2 <a, q>) + |a|^2, takes the least of the five in turn, and then the larger
   of that and zero. The precondition makes every entry a real number; then both arrangements are the real number
   sum_d (a_d - q_d)^2, which is not negative, so the kernel's last step changes nothing and the two tables agree entry
   by entry (Proof/SquaredDistance.lean). The kernel's second result is that table and its first the zero word minus it,
   which is the negation the reference returns.

   The three frames are the generated ones (the reference's is its generated run with the results dropped); the
   idealization rewrote no operation, so the fourth conjunct is trivial; the fifth sets the kernel's run
   (Proof/WholeTable.lean, over the generated blockwise value leg) beside the reference's generated run read one
   operation at a time (Proof/ReferenceTable.lean). -/
import proofs.«118044_j23897198035269_2_alg».proof.Defs
import proofs.«118044_j23897198035269_2_alg».proof.Proof.Gen.Kernel
import proofs.«118044_j23897198035269_2_alg».proof.Proof.Gen.Kernel.Skeleton
import proofs.«118044_j23897198035269_2_alg».proof.Proof.Gen.Kernel.Launch
import proofs.«118044_j23897198035269_2_alg».proof.Proof.Gen.Kernel.Points
import proofs.«118044_j23897198035269_2_alg».proof.Proof.Gen.Kernel.Frame
import proofs.«118044_j23897198035269_2_alg».proof.Proof.Gen.KernelIdeal
import proofs.«118044_j23897198035269_2_alg».proof.Proof.Gen.KernelIdeal.Skeleton
import proofs.«118044_j23897198035269_2_alg».proof.Proof.Gen.KernelIdeal.Launch
import proofs.«118044_j23897198035269_2_alg».proof.Proof.Gen.KernelIdeal.Points
import proofs.«118044_j23897198035269_2_alg».proof.Proof.Gen.KernelIdeal.Frame
import proofs.«118044_j23897198035269_2_alg».proof.Proof.Gen.ReferenceIdeal
import proofs.«118044_j23897198035269_2_alg».proof.Proof.Gen.Pre_finite_inputs
import proofs.«118044_j23897198035269_2_alg».proof.Proof.Gen.KernelIdeal.Value
import proofs.«118044_j23897198035269_2_alg».proof.Proof.Gen.ReferenceIdeal.Run
import proofs.«118044_j23897198035269_2_alg».proof.Proof.Gen.ReferenceIdeal.Read
import proofs.«118044_j23897198035269_2_alg».proof.Proof.WholeTable
import proofs.«118044_j23897198035269_2_alg».proof.Proof.ReferenceTable
import proofs.«118044_j23897198035269_2_alg».proof.Proof.RealEntries
import Idealize.ShloMosaic.Adequacy
import Idealize.ShloMosaic.Init

noncomputable section

namespace Cert.Proof

open Idealize.ShloMosaic Idealize.SL.Sem Cert.MinDistance

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2)
    (Cert.ReferenceIdeal.Value.run (F := Ideal) m ρ)

/-- The idealization rewrote no operation. -/
theorem preserves : Cert.preserves_Kernel_KernelIdeal := trivial

/-- From memories that agree on the two arguments, whose entries the precondition makes real, the kernel ends with its
    results at the negated table and the table of least squared distances, and so does the reference. -/
theorem algebraic : Cert.algebraic_KernelIdeal_ReferenceIdeal := by
  intro m ρ m' ρ' hpre hagree
  have hreal := fun c => Cert.Pre_finite_inputs.RealEntries.entries_real _ _ (hpre c)
  refine ⟨fun c => negLeastTable (Cert.KernelIdeal.Resident.rows m c) (Cert.KernelIdeal.Resident.protos m c),
    fun c => leastTable (Cert.KernelIdeal.Resident.rows m c) (Cert.KernelIdeal.Resident.protos m c), ?_, ?_⟩
  · exact (θ_run Cert.KernelIdeal.defs _ _).mono (fun r h c =>
      ⟨(h c).1.trans (negClampedTable_eq _ _ (hreal c).1 (hreal c).2),
        (h c).2.1.trans (clampedTable_eq _ _ (hreal c).1 (hreal c).2), (h c).2.2⟩)
      (Cert.KernelIdeal.Table.run m ρ)
  · refine (θ_run Cert.ReferenceIdeal.defs _ _).mono (fun r h c => ⟨(h c).1.trans ?_, (h c).2.1.trans ?_, (h c).2.2⟩)
      (Cert.ReferenceIdeal.Value.run (F := Ideal) m' ρ')
    · rw [Cert.ReferenceIdeal.Read.val_main_v14_eq, (hagree c).1, (hagree c).2]
      exact Cert.ReferenceIdeal.Table.negLeast_eq _ _
    · rw [Cert.ReferenceIdeal.Read.val_main_v13_eq, (hagree c).1, (hagree c).2]
      exact Cert.ReferenceIdeal.Table.least_eq _ _

theorem claim : Cert.Claim := ⟨Cert.Kernel.Gen.facts, Cert.KernelIdeal.Gen.facts, Cert.ReferenceIdeal.Gen.facts,
  Cert.Pre_finite_inputs.Gen.facts, frame_kernel, frame_kernelIdeal, frame_referenceIdeal, preserves, algebraic⟩

end Cert.Proof

end
